-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .bf16⟩
  | .hbm, ⟨4, _⟩ => ⟨S32x2048x64, .bf16⟩
  | .hbm, ⟨5, _⟩ => ⟨S32x2048x64, .f32⟩
  | .hbm, ⟨6, _⟩ => ⟨S32x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S32x2048, .f32⟩
  | .hbm, ⟨6, _⟩ => ⟨S_, .f32⟩
  | .hbm, ⟨7, _⟩ => ⟨S32x2048, .f32⟩
  | .hbm, ⟨8, _⟩ => ⟨S32x2048, .f32⟩
  | .hbm, ⟨9, _⟩ => ⟨S32x2048x1, .f32⟩
  | .hbm, ⟨10, _⟩ => ⟨S32x2048x2048, .f32⟩
  | .hbm, ⟨11, _⟩ => ⟨S32x2048x2048, .f32⟩
  | .hbm, ⟨12, _⟩ => ⟨S32x2048x2048, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S32x2048x2048, .f32⟩
  | .hbm, ⟨17, _⟩ => ⟨S32x2048x2048, .f32⟩
  | .hbm, ⟨18, _⟩ => ⟨S32x2048x64, .f32⟩
  | .hbm, ⟨19, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.KernelDots.lean ====
/-
  The kernel body's two matrix products, read at an index at the ideal values. Both accumulate into a zero splat, so each
  is the plain sum of products over its one contracted axis:
    * a [512, 64] block times the transpose of a [2048, 64] block (contracting the 64-axis of both) at (r, c);
    * a [512, 2048] block times a [2048, 64] block (contracting the 2048-axis) at (r, d).
  The record of each product names which operand coordinate is the contracted one; the lemmas below read those off.
-/
import proofs.«166888_j1692217115311_2_alg».proof.Proof.Gen.KernelIdeal
import Idealize.ShloMosaic.PureOps.Ideal.Laws
import Idealize.ShloMosaic.Lib.ValueIdx

noncomputable section

open scoped BigOperators

namespace Cert.KernelIdeal.Hand

open Cert.KernelIdeal Cert.KernelIdeal.Gen Idealize.ShloMosaic Idealize.ShloMosaic.ValueIdx

/-- The record of q·kᵀ on blocks, and of probabilities·values on blocks. -/
abbrev dQK : DotDims S512x64 S2048x64 S512x2048 := dot_S512x64_S2048x64_S512x2048_1_1_0_0_n_n
abbrev dPV : DotDims S512x2048 S2048x64 S512x64 := dot_S512x2048_S2048x64_S512x64_1_0_0_1_n_n

/-! ## q·kᵀ: the left operand is read at (row, k), the right at (column, k) -/

theorem dQK_lhs0 (i : S512x2048.Idx) (q : dQK.contr.Idx) : (dQK.lhsIdx i q 0).val = (i 0).val := by
  unfold DotDims.lhsIdx
  rw [dif_neg (show ¬(0 : Fin S512x64.rank) ∈ dQK.lhsBatch by decide), dif_pos (show (0 : Fin S512x64.rank) ∈ dQK.lhsNonContracting by decide)]
  rfl
theorem dQK_lhs1 (i : S512x2048.Idx) (q : dQK.contr.Idx) : (dQK.lhsIdx i q 1).val = (q ⟨0, by decide⟩).val :=
  dQK.lhsIdx_val_of_single rfl i q
theorem dQK_rhs0 (i : S512x2048.Idx) (q : dQK.contr.Idx) : (dQK.rhsIdx i q 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
theorem dQK_rhs1 (i : S512x2048.Idx) (q : dQK.contr.Idx) : (dQK.rhsIdx i q 1).val = (q ⟨0, by decide⟩).val :=
  dQK.rhsIdx_val_of_single rfl i q

/-- Entry (r, c) of the block of scores: the sum over the 64 features of query row r times key row c. -/
theorem scores_apply (x : FVec Ideal S512x64 .bf16) (y : FVec Ideal S2048x64 .bf16) (r : Fin 512) (c : Fin 2048) :
    matmul dQK none x y (constant S512x2048 .f32 0x00000000#32) (ix2 r c) = ∑ d : Fin 64, x (ix2 r d) * y (ix2 c d) := by
  simp only [matmul]
  rw [Ideal.matmul_constant_zero_apply, ← Equiv.sum_comp (contrEquiv1 dQK 64 rfl rfl).symm]
  refine Finset.sum_congr rfl fun k _ => ?_
  have hk := contrEquiv1_symm_val dQK 64 rfl rfl k
  have el : dQK.lhsIdx (ix2 r c) ((contrEquiv1 dQK 64 rfl rfl).symm k) = ix2 r k := funext fun a => Fin.ext (by
    match a with
    | ⟨0, _⟩ => exact dQK_lhs0 _ _
    | ⟨1, _⟩ => exact (dQK_lhs1 _ _).trans hk)
  have er : dQK.rhsIdx (ix2 r c) ((contrEquiv1 dQK 64 rfl rfl).symm k) = ix2 c k := funext fun a => Fin.ext (by
    match a with
    | ⟨0, _⟩ => exact dQK_rhs0 _ _
    | ⟨1, _⟩ => exact (dQK_rhs1 _ _).trans hk)
  rw [el, er]

/-! ## probabilities·values: the left operand is read at (row, k), the right at (k, column) -/

theorem dPV_lhs0 (i : S512x64.Idx) (q : dPV.contr.Idx) : (dPV.lhsIdx i q 0).val = (i 0).val := by
  unfold DotDims.lhsIdx
  rw [dif_neg (show ¬(0 : Fin S512x2048.rank) ∈ dPV.lhsBatch by decide), dif_pos (show (0 : Fin S512x2048.rank) ∈ dPV.lhsNonContracting by decide)]
  rfl
theorem dPV_lhs1 (i : S512x64.Idx) (q : dPV.contr.Idx) : (dPV.lhsIdx i q 1).val = (q ⟨0, by decide⟩).val :=
  dPV.lhsIdx_val_of_single rfl i q
theorem dPV_rhs0 (i : S512x64.Idx) (q : dPV.contr.Idx) : (dPV.rhsIdx i q 0).val = (q ⟨0, by decide⟩).val :=
  dPV.rhsIdx_val_of_single rfl i q
theorem dPV_rhs1 (i : S512x64.Idx) (q : dPV.contr.Idx) : (dPV.rhsIdx i q 1).val = (i 1).val := by
  unfold DotDims.rhsIdx
  rw [dif_neg (show ¬(1 : Fin S2048x64.rank) ∈ dPV.rhsBatch by decide), dif_pos (show (1 : Fin S2048x64.rank) ∈ dPV.rhsNonContracting by decide)]
  rfl

/-- Entry (r, d) of the block of contexts before the residual: the sum over the 2048 keys of probability (r, c) times
    value (c, d). -/
theorem weighted_apply (p : FVec Ideal S512x2048 .bf16) (y : FVec Ideal S2048x64 .bf16) (r : Fin 512) (d : Fin 64) :
    matmul dPV none p y (constant S512x64 .f32 0x00000000#32) (ix2 r d) = ∑ c : Fin 2048, p (ix2 r c) * y (ix2 c d) := by
  simp only [matmul]
  rw [Ideal.matmul_constant_zero_apply, ← Equiv.sum_comp (contrEquiv1 dPV 2048 rfl rfl).symm]
  refine Finset.sum_congr rfl fun k _ => ?_
  have hk := contrEquiv1_symm_val dPV 2048 rfl rfl k
  have el : dPV.lhsIdx (ix2 r d) ((contrEquiv1 dPV 2048 rfl rfl).symm k) = ix2 r k := funext fun a => Fin.ext (by
    match a with
    | ⟨0, _⟩ => exact dPV_lhs0 _ _
    | ⟨1, _⟩ => exact (dPV_lhs1 _ _).trans hk)
  have er : dPV.rhsIdx (ix2 r d) ((contrEquiv1 dPV 2048 rfl rfl).symm k) = ix2 k d := funext fun a => Fin.ext (by
    match a with
    | ⟨0, _⟩ => exact (dPV_rhs0 _ _).trans hk
    | ⟨1, _⟩ => exact dPV_rhs1 _ _)
  rw [el, er]

end Cert.KernelIdeal.Hand

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«166888_j1692217115311_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.Spec.lean ====
/-
  What both programs compute, as functions of the three argument arrays q, k, v : [32, 2048, 64] read as extended reals.

  For a batch b and a query row r, with `qrow d = q[b, r, d]`, `K c d = k[b, c, d]`, `V c d = v[b, c, d]`:
    score c   = ∑ d, qrow d · K c d                       (the row of q·kᵀ)
    prob  c   = softmax of the row `score` at c           (maximum subtracted, from −∞; exact division by the row's sum)
    ctxRow d  = (∑ c, prob c · V c d) + qrow d            (probabilities times values, plus the residual query)
  The attention output is `prob` at every (b, r, c); the context output is `ctxRow` at every (b, r, d).
-/
import Idealize.ShloMosaic.PureOps.Ideal.Laws
import Idealize.ShloMosaic.Lib.ValueIdx
import proofs.«166888_j1692217115311_2_alg».proof.Proof.LibSoftmaxRows

noncomputable section

open scoped BigOperators

namespace Cert.Attn

open Idealize.ShloMosaic Idealize.ShloMosaic.ValueIdx Idealize.ShloMosaic.SoftmaxRows

/-- The value both programs start a row's maximum from: the f32 pattern of −∞. Never evaluated: the same word on both sides. -/
abbrev negInf : EReal := Ideal.ofBits .f32 0xFF800000#32

/-- One query row against every key row: the scores of that row. -/
def score (qrow : Fin 64 → EReal) (K : Fin 2048 → Fin 64 → EReal) (c : Fin 2048) : EReal :=
  ∑ d : Fin 64, qrow d * K c d

/-- The attention probabilities of that row: the softmax of its scores. -/
def prob (qrow : Fin 64 → EReal) (K : Fin 2048 → Fin 64 → EReal) (c : Fin 2048) : EReal :=
  softmaxAt (score qrow K) negInf c

/-- The context of that row: the probabilities times the values, plus the query row itself. -/
def ctxRow (qrow : Fin 64 → EReal) (K V : Fin 2048 → Fin 64 → EReal) (d : Fin 64) : EReal :=
  (∑ c : Fin 2048, prob qrow K c * V c d) + qrow d

/-- Row r of batch b of an argument array, and batch b of it as a matrix. -/
abbrev rowOf (q : (⟨3, ![32, 2048, 64]⟩ : Shape).Idx → EReal) (b : Fin 32) (r : Fin 2048) : Fin 64 → EReal :=
  fun d => q (ix3 b r d)
abbrev matOf (k : (⟨3, ![32, 2048, 64]⟩ : Shape).Idx → EReal) (b : Fin 32) : Fin 2048 → Fin 64 → EReal :=
  fun c d => k (ix3 b c d)

/-- The attention array. -/
def attnG (q k : (⟨3, ![32, 2048, 64]⟩ : Shape).Idx → EReal) : (⟨3, ![32, 2048, 2048]⟩ : Shape).Idx → EReal :=
  fun i => prob (rowOf q (i 0) (i 1)) (matOf k (i 0)) (i 2)

/-- The context array. -/
def ctxG (q k v : (⟨3, ![32, 2048, 64]⟩ : Shape).Idx → EReal) : (⟨3, ![32, 2048, 64]⟩ : Shape).Idx → EReal :=
  fun i => ctxRow (rowOf q (i 0) (i 1)) (matOf k (i 0)) (matOf v (i 0)) (i 2)

theorem attnG_ix3 (q k : (⟨3, ![32, 2048, 64]⟩ : Shape).Idx → EReal) (b : Fin 32) (r c : Fin 2048) :
    attnG q k (ix3 b r c) = prob (rowOf q b r) (matOf k b) c := rfl

theorem ctxG_ix3 (q k v : (⟨3, ![32, 2048, 64]⟩ : Shape).Idx → EReal) (b : Fin 32) (r : Fin 2048) (d : Fin 64) :
    ctxG q k v (ix3 b r d) = ctxRow (rowOf q b r) (matOf k b) (matOf v b) d := rfl

end Cert.Attn

end
-- ==== Proof.KernelPay.lean ====
/-
  What one grid point's body computes from the blocks it loads, entry by entry, at the ideal values.

  The body loads a [1, 512, 64] block of queries and whole [1, 2048, 64] blocks of keys and values (the keys and values
  already narrowed by the host, which changes nothing on the extended reals). Row r of the probabilities it stores is the
  softmax of query row r's scores against all 2048 keys; row r of the context it stores is those probabilities times the
  values, plus the query row. Both are the specification's row functions at the block's rows.
-/
import proofs.«166888_j1692217115311_2_alg».proof.Proof.Gen.KernelIdeal.Skeleton
import proofs.«166888_j1692217115311_2_alg».proof.Proof.KernelDots
import proofs.«166888_j1692217115311_2_alg».proof.Proof.Spec
import Idealize.ShloMosaic.Lib.ValueLayout

noncomputable section

open scoped BigOperators

namespace Cert.KernelIdeal.Hand

open Cert.KernelIdeal Cert.KernelIdeal.Gen Idealize.ShloMosaic Idealize.ShloMosaic.ValueIdx
open Idealize.ShloMosaic.SoftmaxRows Cert.Attn

/-- Row r of a loaded query block, and a loaded key or value block as a matrix (the leading unit axis dropped). -/
abbrev rowB (P : FVec Ideal S1x512x64 .f32) (r : Fin 512) : Fin 64 → EReal := fun d => P (ix3 (0 : Fin 1) r d)
abbrev matB (P : FVec Ideal S1x2048x64 .bf16) : Fin 2048 → Fin 64 → EReal := fun c d => P (ix3 (0 : Fin 1) c d)

/-- The query block with its unit axis dropped. -/
theorem pay1_apply (P0 : FVec Ideal S1x512x64 .f32) (r : Fin 512) (d : Fin 64) :
    k0_pay1 (F := Ideal) P0 (ix2 r d) = rowB P0 r d :=
  shapeCast_1ab_ab_apply P0 shapeCasts_S1x512x64_S512x64 r d

/-- The probabilities the body computes, at (r, c): the softmax of row r's scores. -/
theorem pay2_apply (P0 : FVec Ideal S1x512x64 .f32) (P1 : FVec Ideal S1x2048x64 .bf16) (r : Fin 512) (c : Fin 2048) :
    k0_pay2 (F := Ideal) P0 P1 (ix2 r c) = prob (rowB P0 r) (matB P1) c := by
  unfold k0_pay2
  refine (softmaxRows_apply
    (matmul dQK none (truncf .bf16 (k0_pay1 P0) bitsLt_bf16_f32) (shapeCast S2048x64 P1 shapeCasts_S1x2048x64_S2048x64)
      (constant S512x2048 .f32 0x00000000#32))
    0xFF800000#32 0x00000000#32 reduces_S512x2048_S512 shapeCasts_S512_S512x1 broadcasts_S512x1_S512x2048 (.inl rfl) rfl rfl r c).trans ?_
  unfold prob
  refine congrArg (fun row => softmaxAt row negInf c) (funext fun c' => ?_)
  refine (scores_apply _ _ r c').trans ?_
  unfold score
  refine Finset.sum_congr rfl fun d _ => ?_
  exact congrArg₂ (· * ·) (pay1_apply P0 r d) (shapeCast_1ab_ab_apply P1 shapeCasts_S1x2048x64_S2048x64 c' d)

/-- What the body stores into the attention block, at (0, r, c). -/
theorem pay3_apply (P0 : FVec Ideal S1x512x64 .f32) (P1 : FVec Ideal S1x2048x64 .bf16) (z : Fin 1) (r : Fin 512) (c : Fin 2048) :
    k0_pay3 (F := Ideal) P0 P1 (ix3 z r c) = prob (rowB P0 r) (matB P1) c :=
  (shapeCast_ab_1ab_apply (k0_pay2 (F := Ideal) P0 P1) shapeCasts_S512x2048_S1x512x2048 z r c).trans (pay2_apply P0 P1 r c)

/-- What the body stores into the context block, at (0, r, d): the probabilities of row r times the values, plus the query. -/
theorem pay4_apply (P0 : FVec Ideal S1x512x64 .f32) (P1 P2 : FVec Ideal S1x2048x64 .bf16) (z : Fin 1) (r : Fin 512) (d : Fin 64) :
    k0_pay4 (F := Ideal) P0 P1 P2 (ix3 z r d) = ctxRow (rowB P0 r) (matB P1) (matB P2) d := by
  unfold k0_pay4
  refine (shapeCast_ab_1ab_apply _ shapeCasts_S512x64_S1x512x64 z r d).trans ?_
  unfold ctxRow
  refine congrArg₂ (· + ·) ?_ (pay1_apply P0 r d)
  refine (weighted_apply _ _ r d).trans (Finset.sum_congr rfl fun c _ => ?_)
  exact congrArg₂ (· * ·) (pay2_apply P0 P1 r c) (shapeCast_1ab_ab_apply P2 shapeCasts_S1x2048x64_S2048x64 c d)

end Cert.KernelIdeal.Hand

end
-- ==== Proof.KernelArrays.lean ====
/-
  From what each grid point writes back to the two result arrays whole, at the ideal values.

  The grid is 32 batches × 4 query tiles. At point (b, qi) the body sees rows 512·qi … 512·qi + 511 of batch b of q, and the
  whole of batch b of k and v (as the host narrowed them, which is the identity on extended reals); it writes back rows
  512·qi … of batch b of both results. So what it writes is the block of the specification's arrays at those rows, the
  blocks tile both arrays, and after the run each result array is the specification's.
-/
import proofs.«166888_j1692217115311_2_alg».proof.Proof.Gen.KernelIdeal.Value
import proofs.«166888_j1692217115311_2_alg».proof.Proof.KernelPay
import Idealize.ShloMosaic.Lib.StableHlo.Run

set_option maxRecDepth 16384

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Attn

variable (m : (ℓ : Loc nD τ sig) → Buf (Elt Ideal) ℓ) (ρ : Dev nD → PrngReg)

theorem hz3 : (![0, 0, 0] : Fin 3 → Nat) = fun _ => 0 := funext fun a => by fin_cases a <;> rfl

/-- The three argument arrays as launched. -/
abbrev argQ (c : Dev nD) : S32x2048x64.Idx → EReal := m ((c : Thread nD τ).loc main_arg0)
abbrev argK (c : Dev nD) : S32x2048x64.Idx → EReal := m ((c : Thread nD τ).loc main_arg1)
abbrev argV (c : Dev nD) : S32x2048x64.Idx → EReal := m ((c : Thread nD τ).loc main_arg2)

/-- The keys and the values as the region finds them: the host's narrowing of k and v, the identity on extended reals. -/
theorem V_keys (c : Dev nD) : (V m c main_v0 : S32x2048x64.Idx → EReal) = argK m c := by
  dsimp only [V, hostOps0]; after_results; rfl
theorem V_vals (c : Dev nD) : (V m c main_v1 : S32x2048x64.Idx → EReal) = argV m c := by
  dsimp only [V, hostOps0]; after_results; rfl

/-! ## Where each window's block sits at a point -/

/-- The printed index maps, decided over the 128 points: the query window and both result windows sit at (b, qi, 0), the
    key and value windows at (b, 0, 0), with b < 32 and qi < 4. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (2 : Fin 3) = 0 ∧ win0_4.index t (0 : Fin 3) ≤ 31 ∧ win0_4.index t (1 : Fin 3) ≤ 3 :=
  (by decide +kernel : ∀ t : Fin grid0.N, _)

/-- Every (batch, query tile) pair is some point's. -/
theorem idx_onto : ∀ (q0 : Fin 32) (q1 : Fin 4), ∃ t : Fin cfg0.N,
    win0_4.index t (0 : Fin 3) = q0.val ∧ win0_4.index t (1 : Fin 3) = q1.val :=
  (by decide +kernel : ∀ (q0 : Fin 32) (q1 : Fin 4), ∃ t : Fin grid0.N,
    win0_4.index t (0 : Fin 3) = q0.val ∧ win0_4.index t (1 : Fin 3) = q1.val)

/-- The query block at a point: row r of it is row 512·qi + r of batch b of q. -/
theorem qblk_apply (c : Dev nD) (t : Fin cfg0.N) (z : Fin 1) (r : Fin 512) (d : Fin 64) (B : Fin 32) (R : Fin 2048)
    (hB : win0_0.index t (0 : Fin 3) = B.val) (hR : win0_0.index t (1 : Fin 3) * 512 + r.val = R.val)
    (h2 : win0_0.index t (2 : Fin 3) = 0) :
    (iblk m c 0 t : FVec Ideal S1x512x64 .f32) (ix3 z r d) = argQ m c (ix3 B R d) := by
  have hz := z.isLt
  unfold iblk
  rw [View.read_apply]
  show V m c main_arg0 _ = _
  refine (congrFun (V_main_arg0 m c) _).trans ?_
  refine congrArg (argQ m c) (funext fun a => Fin.ext ?_)
  match a with
  | ⟨0, _⟩ => show win0_0.index t (0 : Fin 3) * 1 + 1 * z.val = B.val; omega
  | ⟨1, _⟩ => show win0_0.index t (1 : Fin 3) * 512 + 1 * r.val = R.val; omega
  | ⟨2, _⟩ => show win0_0.index t (2 : Fin 3) * 64 + 1 * d.val = d.val; omega

/-- The key block at a point: the whole of batch b of k. -/
theorem kblk_apply (c : Dev nD) (t : Fin cfg0.N) (z : Fin 1) (j : Fin 2048) (d : Fin 64) (B : Fin 32)
    (hB : win0_1.index t (0 : Fin 3) = B.val) (h1 : win0_1.index t (1 : Fin 3) = 0) (h2 : win0_1.index t (2 : Fin 3) = 0) :
    (iblk m c 1 t : FVec Ideal S1x2048x64 .bf16) (ix3 z j d) = argK m c (ix3 B j d) := by
  have hz := z.isLt
  unfold iblk
  rw [View.read_apply]
  show (V m c main_v0 : S32x2048x64.Idx → EReal) _ = _
  refine (congrFun (V_keys m c) _).trans ?_
  refine congrArg (argK m c) (funext fun a => Fin.ext ?_)
  match a with
  | ⟨0, _⟩ => show win0_1.index t (0 : Fin 3) * 1 + 1 * z.val = B.val; omega
  | ⟨1, _⟩ => show win0_1.index t (1 : Fin 3) * 2048 + 1 * j.val = j.val; omega
  | ⟨2, _⟩ => show win0_1.index t (2 : Fin 3) * 64 + 1 * d.val = d.val; omega

/-- The value block at a point: the whole of batch b of v. -/
theorem vblk_apply (c : Dev nD) (t : Fin cfg0.N) (z : Fin 1) (j : Fin 2048) (d : Fin 64) (B : Fin 32)
    (hB : win0_2.index t (0 : Fin 3) = B.val) (h1 : win0_2.index t (1 : Fin 3) = 0) (h2 : win0_2.index t (2 : Fin 3) = 0) :
    (iblk m c 2 t : FVec Ideal S1x2048x64 .bf16) (ix3 z j d) = argV m c (ix3 B j d) := by
  have hz := z.isLt
  unfold iblk
  rw [View.read_apply]
  show (V m c main_v1 : S32x2048x64.Idx → EReal) _ = _
  refine (congrFun (V_vals m c) _).trans ?_
  refine congrArg (argV m c) (funext fun a => Fin.ext ?_)
  match a with
  | ⟨0, _⟩ => show win0_2.index t (0 : Fin 3) * 1 + 1 * z.val = B.val; omega
  | ⟨1, _⟩ => show win0_2.index t (1 : Fin 3) * 2048 + 1 * j.val = j.val; omega
  | ⟨2, _⟩ => show win0_2.index t (2 : Fin 3) * 64 + 1 * d.val = d.val; omega

/-! ## The attention array -/

/-- What point t writes back to the attention array is block t of the specification's attention array. -/
theorem flushed4_eq (c : Dev nD) (t : Fin cfg0.N) :
    (dats m 0 c).flushed 4 t = ((cfg0.win 4).blk t).view.read (Elt Ideal) (attnG (argQ m c) (argK m c)) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3]
  obtain ⟨e00, e01, e02, e10, e11, e12, e20, e21, e22, e30, e31, e32, e42, b0, b1⟩ := idx_facts t
  funext y
  obtain ⟨z, r, j, rfl⟩ : ∃ (z : Fin 1) (r : Fin 512) (j : Fin 2048), y = ix3 z r j := ⟨y 0, y 1, y 2, eq_ix3 y⟩
  have hz := z.isLt
  have hr := r.isLt
  show k0_pay3 (F := Ideal) (iblk m c 0 t) (iblk m c 1 t) (ix3 z r j)
    = attnG (argQ m c) (argK m c) (((cfg0.win 4).blk t).view.emb (ix3 z r j))
  have hemb : ((cfg0.win 4).blk t).view.emb (ix3 z r j)
      = ix3 (⟨win0_4.index t (0 : Fin 3), by omega⟩ : Fin 32) (⟨win0_4.index t (1 : Fin 3) * 512 + r.val, by omega⟩ : Fin 2048) j :=
    funext fun a => Fin.ext (by
      match a with
      | ⟨0, _⟩ => show win0_4.index t (0 : Fin 3) * 1 + 1 * z.val = win0_4.index t (0 : Fin 3); omega
      | ⟨1, _⟩ => show win0_4.index t (1 : Fin 3) * 512 + 1 * r.val = win0_4.index t (1 : Fin 3) * 512 + r.val; omega
      | ⟨2, _⟩ => show win0_4.index t (2 : Fin 3) * 2048 + 1 * j.val = j.val; omega)
  rw [hemb, attnG_ix3]
  refine (pay3_apply (iblk m c 0 t) (iblk m c 1 t) z r j).trans ?_
  refine congrArg₂ (fun a b => prob a b j) (funext fun d => ?_) (funext fun c' => funext fun d => ?_)
  · exact qblk_apply m c t 0 r d _ _ e00 (by rw [e01]) e02
  · exact kblk_apply m c t 0 c' d _ e10 e11 e12

/-- An index of the attention array is in point t's block iff each coordinate is in the block's range on its axis. -/
theorem mem_blk4 (t : Fin cfg0.N) (i : S32x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v2_1).slice (win0_4.rect t)).set ↔ _
  rw [View.set_slice_whole, Rect.mem_set_unit]
  exact Iff.rfl

/-- The blocks tile the attention array: index (b, s, c) is in the block of the point at (b, s / 512). -/
theorem cover4 (c : Dev nD) (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, q0, q1⟩ := idx_onto ⟨(i 0).val, hi0⟩ ⟨(i 1).val / 512, by omega⟩
  have q0' : win0_4.index t (0 : Fin 3) = (i 0).val := q0
  have q1' : win0_4.index t (1 : Fin 3) = (i 1).val / 512 := q1
  obtain ⟨e00, e01, e02, e10, e11, e12, e20, e21, e22, e30, e31, e32, e42, b0, b1⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- After the run the attention array is the specification's. -/
theorem final4 (c : Dev nD) : (dats m 0 c).arrAt 4 cfg0.N = attnG (argQ m c) (argK m c) :=
  (dats m 0 c).arrAt_eq_of_cover 4 (attnG (argQ m c) (argK m c)) (fun t _ => flushed4_eq m c t) (cover4 c)

/-! ## The context array -/

/-- What point t writes back to the context array is block t of the specification's context array. -/
theorem flushed3_eq (c : Dev nD) (t : Fin cfg0.N) :
    (dats m 0 c).flushed 3 t = ((cfg0.win 3).blk t).view.read (Elt Ideal) (ctxG (argQ m c) (argK m c) (argV m c)) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x2048x64) hz3]
  obtain ⟨e00, e01, e02, e10, e11, e12, e20, e21, e22, e30, e31, e32, e42, b0, b1⟩ := idx_facts t
  funext y
  obtain ⟨z, r, d, rfl⟩ : ∃ (z : Fin 1) (r : Fin 512) (d : Fin 64), y = ix3 z r d := ⟨y 0, y 1, y 2, eq_ix3 y⟩
  have hz := z.isLt
  have hr := r.isLt
  show k0_pay4 (F := Ideal) (iblk m c 0 t) (iblk m c 1 t) (iblk m c 2 t) (ix3 z r d)
    = ctxG (argQ m c) (argK m c) (argV m c) (((cfg0.win 3).blk t).view.emb (ix3 z r d))
  have hemb : ((cfg0.win 3).blk t).view.emb (ix3 z r d)
      = ix3 (⟨win0_4.index t (0 : Fin 3), by omega⟩ : Fin 32) (⟨win0_4.index t (1 : Fin 3) * 512 + r.val, by omega⟩ : Fin 2048) d :=
    funext fun a => Fin.ext (by
      match a with
      | ⟨0, _⟩ => show win0_3.index t (0 : Fin 3) * 1 + 1 * z.val = win0_4.index t (0 : Fin 3); omega
      | ⟨1, _⟩ => show win0_3.index t (1 : Fin 3) * 512 + 1 * r.val = win0_4.index t (1 : Fin 3) * 512 + r.val; omega
      | ⟨2, _⟩ => show win0_3.index t (2 : Fin 3) * 64 + 1 * d.val = d.val; omega)
  rw [hemb, ctxG_ix3]
  refine (pay4_apply (iblk m c 0 t) (iblk m c 1 t) (iblk m c 2 t) z r d).trans ?_
  have hq : rowB (iblk m c 0 t) r = rowOf (argQ m c) ⟨win0_4.index t (0 : Fin 3), by omega⟩ ⟨win0_4.index t (1 : Fin 3) * 512 + r.val, by omega⟩ :=
    funext fun d' => qblk_apply m c t 0 r d' _ _ e00 (by rw [e01]) e02
  have hk : matB (iblk m c 1 t) = matOf (argK m c) ⟨win0_4.index t (0 : Fin 3), by omega⟩ :=
    funext fun c' => funext fun d' => kblk_apply m c t 0 c' d' _ e10 e11 e12
  have hv : matB (iblk m c 2 t) = matOf (argV m c) ⟨win0_4.index t (0 : Fin 3), by omega⟩ :=
    funext fun c' => funext fun d' => vblk_apply m c t 0 c' d' _ e20 e21 e22
  rw [hq, hk, hv]

/-- An index of the context array is in point t's block iff each coordinate is in the block's range on its axis. -/
theorem mem_blk3 (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v2_0).slice (win0_3.rect t)).set ↔ _
  rw [View.set_slice_whole, Rect.mem_set_unit]
  exact Iff.rfl

/-- The blocks tile the context array. -/
theorem cover3 (c : Dev nD) (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  have q0' : win0_4.index t (0 : Fin 3) = (i 0).val := q0
  have q1' : win0_4.index t (1 : Fin 3) = (i 1).val / 512 := q1
  obtain ⟨e00, e01, e02, e10, e11, e12, e20, e21, e22, e30, e31, e32, e42, b0, b1⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- After the run the context array is the specification's. -/
theorem final3 (c : Dev nD) : (dats m 0 c).arrAt 3 cfg0.N = ctxG (argQ m c) (argK m c) (argV m c) :=
  (dats m 0 c).arrAt_eq_of_cover 3 (ctxG (argQ m c) (argK m c) (argV m c)) (fun t _ => flushed3_eq m c t) (cover3 c)

/-! ## The run, read -/

/-- Every weakly fair execution of the idealized kernel ends with the context array and the attention array at the
    specification's functions of the arguments as launched, the arguments unchanged. -/
theorem run : θ_run defs (onTc (τ := τ) (main (F := Ideal))) ⟨m, fun _ => 0, ρ⟩ fun r => ∀ c : Dev nD,
      r.2.mem ((c : Thread nD τ).loc main_v2_0) = ctxG (argQ m c) (argK m c) (argV m c)
      ∧ r.2.mem ((c : Thread nD τ).loc main_v2_1) = attnG (argQ m c) (argK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (run_blocks m ρ)

end Cert.KernelIdeal.Hand

end
-- ==== Proof.RefIsSpec.lean ====
/-
  The reference, one operation after another, computes the specification's two arrays.

  Its scores are the batched product q·kᵀ; its row maximum is a fold of `max` from −∞, taken once more against −∞ (which
  changes nothing); the exponentials, their row sums from zero, the quotient and the batched product with v plus q follow
  the specification line by line.
-/
import proofs.«166888_j1692217115311_2_alg».proof.Proof.Gen.ReferenceIdeal.Read
import proofs.«166888_j1692217115311_2_alg».proof.Proof.Spec

noncomputable section

open scoped BigOperators

namespace Cert.ReferenceIdeal.Hand

open Cert.ReferenceIdeal Cert.ReferenceIdeal.Gen Cert.ReferenceIdeal.Read Idealize.ShloMosaic Idealize.ShloMosaic.ValueIdx
open Idealize.ShloMosaic.SoftmaxRows Cert.Attn

variable (x0 x1 x2 : (⟨S32x2048x64, .f32⟩ : BufTy).Contents (Elt Ideal))

/-- The scores: entry (b, r, c) of q·kᵀ. -/
theorem scores_ref (b : Fin 32) (r c : Fin 2048) :
    val_main_v0 (F := Ideal) x0 x1 (ix3 b r c) = score (rowOf x0 b r) (matOf x1 b) c := by
  rw [val_main_v0_apply]
  unfold score
  refine Finset.sum_congr rfl fun d _ => congrArg₂ (· * ·) (congrArg x0 ?_) (congrArg x1 ?_) <;>
    exact funext fun a => Fin.ext (by match a with | ⟨0, _⟩ => rfl | ⟨1, _⟩ => rfl | ⟨2, _⟩ => rfl)

/-- The row maximum the reference subtracts: the fold of `max` from −∞ over the row's scores (the second maximum with −∞ absorbed). -/
theorem rowmax_ref (b : Fin 32) (r : Fin 2048) :
    val_main_v3 (F := Ideal) x0 x1 (ix2 b r)
      = (Finset.univ : Finset (Fin 2048)).fold max negInf (score (rowOf x0 b r) (matOf x1 b)) := by
  have h1 : val_main_v1 (F := Ideal) x0 x1 (ix2 b r)
      = (Finset.univ : Finset (Fin 2048)).fold max negInf (score (rowOf x0 b r) (matOf x1 b)) :=
    (hostLaneMax3_apply (val_main_v0 (F := Ideal) x0 x1) (val_main_cst (F := Ideal)) reducesTo_S32x2048x2048_S32x2048_d2
        (by decide) h_S_ b r).trans
      (Finset.fold_congr fun c _ => scores_ref x0 x1 b r c)
  have h2 : val_main_v2 (F := Ideal) (ix2 b r) = negInf := (val_main_v2_apply _).trans rfl
  rw [val_main_v3_apply, h1, h2]
  exact max_fold_max_self _ _ _

/-- The exponentials. -/
theorem expo_ref (b : Fin 32) (r c : Fin 2048) :
    val_main_v7 (F := Ideal) x0 x1 (ix3 b r c)
      = Ideal.exp (score (rowOf x0 b r) (matOf x1 b) c
          - (Finset.univ : Finset (Fin 2048)).fold max negInf (score (rowOf x0 b r) (matOf x1 b))) := by
  have e : idx_main_v4 (idx_main_v5 (ix3 b r c)) = ix2 b r :=
    funext fun a => Fin.ext (by match a with | ⟨0, _⟩ => rfl | ⟨1, _⟩ => rfl)
  rw [val_main_v7_apply, val_main_v6_apply, val_main_v5_apply, val_main_v4_apply, e, rowmax_ref, scores_ref]
  rfl

/-- The row sums of the exponentials (from the zero the reference starts them at). -/
theorem denom_ref (b : Fin 32) (r c : Fin 2048) :
    val_main_v10 (F := Ideal) x0 x1 (ix3 b r c)
      = ∑ k : Fin 2048, Ideal.exp (score (rowOf x0 b r) (matOf x1 b) k
          - (Finset.univ : Finset (Fin 2048)).fold max negInf (score (rowOf x0 b r) (matOf x1 b))) := by
  have e : idx_main_v9 (idx_main_v10 (ix3 b r c)) = ix2 b r :=
    funext fun a => Fin.ext (by match a with | ⟨0, _⟩ => rfl | ⟨1, _⟩ => rfl)
  rw [val_main_v10_apply, val_main_v9_apply, e, val_main_v8_apply, val_main_cst_1_apply]
  show Ideal.ofBits .f32 0x00000000#32 + _ = _
  rw [Ideal.ofBits_zero_f32, zero_add]
  refine Finset.sum_congr rfl fun k _ => ?_
  have e2 : idx_main_v8 (ix2 b r) k = ix3 b r k :=
    funext fun a => Fin.ext (by match a with | ⟨0, _⟩ => rfl | ⟨1, _⟩ => rfl | ⟨2, _⟩ => rfl)
  rw [e2]
  exact expo_ref x0 x1 b r k

/-- The reference's attention output is the specification's attention array. -/
theorem attn_ref : val_main_v11 (F := Ideal) x0 x1 = attnG x0 x1 := by
  funext i
  obtain ⟨b, r, c, rfl⟩ : ∃ (b : Fin 32) (r c : Fin 2048), i = ix3 b r c := ⟨i 0, i 1, i 2, eq_ix3 i⟩
  rw [val_main_v11_apply, expo_ref, denom_ref]
  rfl

/-- The reference's context output is the specification's context array. -/
theorem ctx_ref : val_main_v13 (F := Ideal) x0 x1 x2 = ctxG x0 x1 x2 := by
  funext i
  obtain ⟨b, r, d, rfl⟩ : ∃ (b : Fin 32) (r : Fin 2048) (d : Fin 64), i = ix3 b r d := ⟨i 0, i 1, i 2, eq_ix3 i⟩
  rw [val_main_v13_apply, val_main_v12_apply, attn_ref, ctxG_ix3]
  unfold ctxRow
  refine congrArg₂ (· + ·) (Finset.sum_congr rfl fun k _ => ?_) rfl
  have el : lidx_main_v12 (ix3 b r d) k = ix3 b r k :=
    funext fun a => Fin.ext (by match a with | ⟨0, _⟩ => rfl | ⟨1, _⟩ => rfl | ⟨2, _⟩ => rfl)
  have er : ridx_main_v12 (ix3 b r d) k = ix3 b k d :=
    funext fun a => Fin.ext (by match a with | ⟨0, _⟩ => rfl | ⟨1, _⟩ => rfl | ⟨2, _⟩ => rfl)
  rw [el, er, attnG_ix3]

end Cert.ReferenceIdeal.Hand

end
-- ==== Proof.lean ====
/-
  Scaled-dot-product attention without scale or mask, over q, k, v : f32[32, 2048, 64]: the attention matrix
  softmax(q·kᵀ) : [32, 2048, 2048] and the context softmax(q·kᵀ)·v + q : [32, 2048, 64].

  The kernel tiles the queries 512 rows at a time, keeps a batch's keys and values whole beside each tile, and computes a
  tile's full rows of scores, so every softmax row is complete inside one grid point: row maximum from −∞, exponentials of
  the differences, their sum from zero, an exact division, then the product with the values plus the query tile. The
  reference does the same over whole arrays, taking the row maximum once more against −∞. On the extended reals the
  narrowing of operands to bf16 is the identity, a matrix product into a zero accumulator is the plain sum of products, a
  maximum against the value a fold of maxima started from is that fold, and a sum started from zero is the sum. So both
  programs compute one function of the arguments, entry by entry (Proof/Spec.lean), and no finiteness of the inputs is
  used: the two sides agree at infinite entries as well.

  Proof/KernelPay.lean reads one grid point's stores as the specification's rows of the loaded blocks;
  Proof/KernelArrays.lean places the blocks in the arrays and covers both result arrays; Proof/RefIsSpec.lean reads the
  reference operation by operation. The three frames are the generated runs; the idealization rewrote nothing.
-/
import proofs.«166888_j1692217115311_2_alg».proof.Defs
import proofs.«166888_j1692217115311_2_alg».proof.Proof.Gen.Kernel
import proofs.«166888_j1692217115311_2_alg».proof.Proof.Gen.Kernel.Skeleton
import proofs.«166888_j1692217115311_2_alg».proof.Proof.Gen.Kernel.Launch
import proofs.«166888_j1692217115311_2_alg».proof.Proof.Gen.Kernel.Points
import proofs.«166888_j1692217115311_2_alg».proof.Proof.Gen.Kernel.Frame
import proofs.«166888_j1692217115311_2_alg».proof.Proof.Gen.KernelIdeal
import proofs.«166888_j1692217115311_2_alg».proof.Proof.Gen.KernelIdeal.Skeleton
import proofs.«166888_j1692217115311_2_alg».proof.Proof.Gen.KernelIdeal.Launch
import proofs.«166888_j1692217115311_2_alg».proof.Proof.Gen.KernelIdeal.Points
import proofs.«166888_j1692217115311_2_alg».proof.Proof.Gen.KernelIdeal.Frame
import proofs.«166888_j1692217115311_2_alg».proof.Proof.Gen.ReferenceIdeal
import proofs.«166888_j1692217115311_2_alg».proof.Proof.Gen.Pre_finite_inputs
import proofs.«166888_j1692217115311_2_alg».proof.Proof.Gen.KernelIdeal.Value
import proofs.«166888_j1692217115311_2_alg».proof.Proof.Gen.ReferenceIdeal.Run
import proofs.«166888_j1692217115311_2_alg».proof.Proof.Gen.ReferenceIdeal.Read
import proofs.«166888_j1692217115311_2_alg».proof.Proof.KernelArrays
import proofs.«166888_j1692217115311_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on q, k, v both idealized programs end with the context array and the attention array at the
    specification's functions of the arguments: the kernel by its blocks (Proof/KernelArrays.lean), the reference by its
    operations (Proof/RefIsSpec.lean). -/
theorem algebraic : Cert.algebraic_KernelIdeal_ReferenceIdeal := by
  intro m ρ m' ρ' _ hagree
  refine ⟨fun c => Cert.Attn.ctxG (Cert.KernelIdeal.Hand.argQ m c) (Cert.KernelIdeal.Hand.argK m c) (Cert.KernelIdeal.Hand.argV m c),
    fun c => Cert.Attn.attnG (Cert.KernelIdeal.Hand.argQ m c) (Cert.KernelIdeal.Hand.argK m c),
    Cert.KernelIdeal.Hand.run m ρ, ?_⟩
  refine (θ_run Cert.ReferenceIdeal.defs _ _).mono (fun _ h c => ?_) (Cert.ReferenceIdeal.Value.run (F := Ideal) m' ρ')
  obtain ⟨h13, h11, hrest⟩ := h c
  obtain ⟨a0, a1, a2⟩ := hagree c
  refine ⟨h13.trans ?_, h11.trans ?_, hrest⟩
  · rw [Cert.ReferenceIdeal.Read.val_main_v13_eq, Cert.ReferenceIdeal.Hand.ctx_ref, a0, a1, a2]
  · rw [Cert.ReferenceIdeal.Read.val_main_v11_eq, Cert.ReferenceIdeal.Hand.attn_ref, a0, a1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
